-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S8x4096 .f32) (main_arg3 : FVec F S4096x8 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x8_S8x4096_S4096x4096_1_0_0_1_n_n_wf : DotDims.WF S4096x8 S8x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S1x1x4096 : Shape := ⟨3, ![1, 1, 4096]⟩
abbrev S4x2048x8 : Shape := ⟨3, ![4, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x8, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Pieces.lean ====
/-
  What one grid point of the kernel leaves behind, as a function of what it found.

  The body keeps a running block `acc` in a scratch buffer.  At a first point along the contraction axis it
  stores a zero block and then adds the product of the point's `x` tile and weight tile to it; at a middle
  point it adds the product to what the point before left; at a last point it does the same and then stores
  `acc + bias` into the output block.  Each lemma below reads one of those final contents as the body's
  own arithmetic term (`k0_pay1`: the zero block; `k0_pay2 x w acc`: `acc + x·wᵀ`; `k0_pay3 acc b`:
  `acc + b` with the bias row repeated down the rows), for any float instance.
-/
import proofs.«106931_j39934605918289_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every store and load of the body: the block's origin. -/
theorem origin : (![0, 0] : Fin 2 → Nat) = fun _ => 0 := funext fun a => by fin_cases a <;> rfl

/-- A middle point leaves `acc + x·wᵀ` in the scratch, `acc` what the point before left there. -/
theorem scratch_mid (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .f32) (x1 : Vec F S1024x1024 .bf16) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero origin]
  simp only [View.readAt_eq_ld, h3.read_unread, h4.read_unread, h7.read_unread, View.ld_unit_zero (S := S1024x1024) origin]

/-- A last point leaves the same in the scratch, -/
theorem scratch_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero origin]
  simp only [View.readAt_eq_ld, h3.read_unread, h4.read_unread, h7.read_unread, View.ld_unit_zero (S := S1024x1024) origin]

/-- and that plus the bias row in the output block (the body reads the scratch back after its own store). -/
theorem out_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero origin, View.readCov_unit_zero (S := S1024x1024) _ origin]
  simp only [View.readAt_eq_ld, h3.read_unread, h4.read_unread, h5.read_unread, h7.read_unread,
    View.ld_unit_zero (S := S1024x1024) origin, View.ld_unit_zero (S := S1x1024) origin]

/-- A first point stores the zero block, reads it back, and leaves `0 + x·wᵀ` in the scratch. -/
theorem scratch_first (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

end Cert.KernelIdeal.Pieces

end
-- ==== Proof.TileArith.lean ====
/-
  The body's arithmetic, one entry at a time, with floats read as extended reals.

  * the zero block is `0` everywhere;
  * the accumulation step at entry `(p, q)` adds `Σ_k x[p, k] · w[q, k]` — a row of the `x` tile against a ROW of
    the weight tile: the weight is kept in its (out, in) layout and contracted along its second axis — to what the
    accumulator held at `(p, q)` (the change of float format on the way into the product is the identity here);
  * the epilogue adds entry `q` of the bias row to entry `(p, q)`.
-/
import proofs.«106931_j39934605918289_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileArith

open Cert.KernelIdeal Cert.KernelIdeal.Gen

/-- The dimension numbers of the tile product: both operands contracted along axis 1. -/
abbrev tileDot := dot_S1024x1024_S1024x1024_S1024x1024_1_1_0_0_n_n

/-- The zero block. -/
theorem zero_block (j : S1024x1024.Idx) : k0_pay1 (F := Ideal) j = 0 := by
  unfold k0_pay1
  rw [shapeCast_self]
  exact Ideal.ofBits_zero_f32

theorem lhs_row (j : S1024x1024.Idx) (q : tileDot.contr.Idx) : (tileDot.lhsIdx j q 0).val = (j 0).val := by
  unfold DotDims.lhsIdx
  rw [dif_neg (show ¬(0 : Fin S1024x1024.rank) ∈ tileDot.lhsBatch by decide), dif_pos (show (0 : Fin S1024x1024.rank) ∈ tileDot.lhsNonContracting by decide)]
  rfl
theorem lhs_col (j : S1024x1024.Idx) (q : tileDot.contr.Idx) : (tileDot.lhsIdx j q 1).val = (q ⟨0, by decide⟩).val :=
  tileDot.lhsIdx_val_of_single rfl j q
theorem rhs_row (j : S1024x1024.Idx) (q : tileDot.contr.Idx) : (tileDot.rhsIdx j q 0).val = (j 1).val := by
  unfold DotDims.rhsIdx
  rw [dif_neg (show ¬(0 : Fin S1024x1024.rank) ∈ tileDot.rhsBatch by decide), dif_pos (show (0 : Fin S1024x1024.rank) ∈ tileDot.rhsNonContracting by decide)]
  rfl
theorem rhs_col (j : S1024x1024.Idx) (q : tileDot.contr.Idx) : (tileDot.rhsIdx j q 1).val = (q ⟨0, by decide⟩).val :=
  tileDot.rhsIdx_val_of_single rfl j q

/-- The tile product into a zero accumulator, at entry `(p, q)`: `Σ_k l[p, k] · r[q, k]`. -/
theorem tile_product (l : FVec Ideal S1024x1024 .bf16) (r : FVec Ideal S1024x1024 .bf16) (p q : Fin 1024) :
    FloatOps.matmul tileDot none l r (constant (F := Ideal) S1024x1024 .f32 0x00000000#32) (ix2 p q)
      = ∑ k : Fin 1024, l (ix2 p k) * r (ix2 q k) := by
  rw [Ideal.matmul_constant_zero_apply, ← Equiv.sum_comp (contrEquiv1 tileDot 1024 rfl rfl).symm]
  refine Finset.sum_congr rfl fun k _ => ?_
  have hk := contrEquiv1_symm_val tileDot 1024 rfl rfl k
  have el : tileDot.lhsIdx (ix2 p q) ((contrEquiv1 tileDot 1024 rfl rfl).symm k) = ix2 p k := funext fun a => Fin.ext (by
    match a with
    | ⟨0, _⟩ => exact lhs_row _ _
    | ⟨1, _⟩ => exact (lhs_col _ _).trans hk)
  have er : tileDot.rhsIdx (ix2 p q) ((contrEquiv1 tileDot 1024 rfl rfl).symm k) = ix2 q k := funext fun a => Fin.ext (by
    match a with
    | ⟨0, _⟩ => exact rhs_row _ _
    | ⟨1, _⟩ => exact (rhs_col _ _).trans hk)
  rw [el, er]

/-- The accumulation step at entry `(p, q)`. -/
theorem acc_step (x : Vec Ideal S1024x1024 .f32) (w : Vec Ideal S1024x1024 .bf16) (acc : Vec Ideal S1024x1024 .f32)
    (p q : Fin 1024) :
    k0_pay2 (F := Ideal) x w acc (ix2 p q) = acc (ix2 p q) + ∑ k : Fin 1024, x (ix2 p k) * w (ix2 q k) := by
  unfold k0_pay2
  simp only [shapeCast_self]
  refine (addf_apply _ _ _).trans ?_
  exact congrArg (acc (ix2 p q) + ·) (tile_product _ _ p q)

/-- The epilogue at entry `(p, q)`. -/
theorem add_bias (a : Vec Ideal S1024x1024 .f32) (b : Vec Ideal S1x1024 .f32) (p q : Fin 1024) :
    k0_pay3 (F := Ideal) a b (ix2 p q) = a (ix2 p q) + b (ix2 (0 : Fin 1) q) := by
  unfold k0_pay3
  simp only [shapeCast_self]
  refine (addf_apply _ _ _).trans ?_
  exact congrArg (a (ix2 p q) + ·) (broadcastTo_1b_ab_apply _ _ p q)

end Cert.KernelIdeal.TileArith

end
-- ==== Proof.LibMergedLowRank.lean ====
/-
  A general lemma file: the algebra of a weight merged with a low-rank update.

  It states: over the real numbers, for any finite index types,
  `Σ_i x_i (w_i + c Σ_r b_r a_{r,i}) + β = (Σ_i x_i w_i + β) + c Σ_r (Σ_i x_i a_{r,i}) b_r` (`merged_real`); a finite
  sum of real numbers read in the extended reals is the sum of the readings (`coe_sum`); a sum over 4096 columns is
  the sum of its four 1024-column blocks added from zero in order (`sum_four_blocks`, with the bijection
  `blockEquiv` and the row / column constructors `rowAt`, `colAt`); and the law on extended reals that are real
  numbers, for 4096 features, rank 8 and four column blocks (`merged_blocks`).

  One output entry of the kernel is a single contraction of a row of `x` against a row of the MERGED weight
  `w + c · (b · a)`, accumulated in four blocks of 1024 columns starting from zero, plus the bias; the reference
  keeps the two paths apart: the base contraction plus the bias, and then `c` times the rank-8 path
  `(x · aᵀ) · bᵀ`.  Over the real numbers these agree by distributivity and by exchanging the two finite sums; the
  block order does not matter because addition of extended reals is associative and commutative.  Distributivity
  fails at the infinities, so the law is stated for entries that are real numbers.
-/
import Mathlib

namespace LowRank

open Finset

/-- Row `p` of row block `rb` (8 blocks of 1024 rows). -/
abbrev rowAt (rb : Fin 8) (p : Fin 1024) : Fin 8192 := ⟨1024 * rb.val + p.val, by omega⟩
/-- Column `q` of column block `cb` (4 blocks of 1024 columns). -/
abbrev colAt (cb : Fin 4) (q : Fin 1024) : Fin 4096 := ⟨1024 * cb.val + q.val, by omega⟩

/-- `Σ_i x_i (w_i + c Σ_r b_r a_{r,i}) + β = (Σ_i x_i w_i + β) + c Σ_r (Σ_i x_i a_{r,i}) b_r` over the reals. -/
theorem merged_real {ι ρ : Type*} [Fintype ι] [Fintype ρ] (x w : ι → ℝ) (a : ρ → ι → ℝ) (b : ρ → ℝ) (c β : ℝ) :
    (∑ i, x i * (w i + c * ∑ r, b r * a r i)) + β
      = ((∑ i, x i * w i) + β) + c * ∑ r, (∑ i, x i * a r i) * b r := by
  have h : ∑ i, x i * (c * ∑ r, b r * a r i) = c * ∑ r, (∑ i, x i * a r i) * b r := by
    simp only [Finset.mul_sum, Finset.sum_mul]
    rw [Finset.sum_comm]
    exact Finset.sum_congr rfl fun r _ => Finset.sum_congr rfl fun i _ => by ring
  simp only [mul_add, Finset.sum_add_distrib, h]
  ring

/-- The 4096 columns are 4 blocks of 1024. -/
def blockEquiv : Fin 4 × Fin 1024 ≃ Fin 4096 where
  toFun x := colAt x.1 x.2
  invFun i := (⟨i.val / 1024, by omega⟩, ⟨i.val % 1024, by omega⟩)
  left_inv := fun ⟨a, b⟩ => by
    refine Prod.ext (Fin.ext ?_) (Fin.ext ?_)
    · show (1024 * a.val + b.val) / 1024 = a.val; omega
    · show (1024 * a.val + b.val) % 1024 = b.val; omega
  right_inv := fun i => Fin.ext (by show 1024 * (i.val / 1024) + i.val % 1024 = i.val; omega)

/-- A sum over the 4096 columns, taken block by block from zero in the order the blocks are visited. -/
theorem sum_four_blocks {M : Type*} [AddCommMonoid M] (f : Fin 4096 → M) :
    (((0 + ∑ k, f (colAt 0 k)) + ∑ k, f (colAt 1 k)) + ∑ k, f (colAt 2 k)) + ∑ k, f (colAt 3 k) = ∑ i, f i := by
  rw [← Equiv.sum_comp blockEquiv f, Fintype.sum_prod_type, Fin.sum_univ_four, zero_add]
  rfl

/-- A finite sum of real numbers, read in the extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- THE LAW, on extended reals that are real numbers: the merged contraction accumulated block by block, plus the
    bias, is the base contraction plus the bias plus `c` times the rank-8 path. -/
theorem merged_blocks (x w : Fin 4096 → ℝ) (a : Fin 8 → Fin 4096 → ℝ) (b : Fin 8 → ℝ) (c β : ℝ) :
    ((((0 + ∑ k : Fin 1024, (x (colAt 0 k) : EReal) * ((w (colAt 0 k) : EReal) + (c : EReal) * ∑ r : Fin 8, (b r : EReal) * (a r (colAt 0 k) : EReal)))
        + ∑ k : Fin 1024, (x (colAt 1 k) : EReal) * ((w (colAt 1 k) : EReal) + (c : EReal) * ∑ r : Fin 8, (b r : EReal) * (a r (colAt 1 k) : EReal)))
        + ∑ k : Fin 1024, (x (colAt 2 k) : EReal) * ((w (colAt 2 k) : EReal) + (c : EReal) * ∑ r : Fin 8, (b r : EReal) * (a r (colAt 2 k) : EReal)))
        + ∑ k : Fin 1024, (x (colAt 3 k) : EReal) * ((w (colAt 3 k) : EReal) + (c : EReal) * ∑ r : Fin 8, (b r : EReal) * (a r (colAt 3 k) : EReal)))
        + (β : EReal)
      = ((∑ i : Fin 4096, (x i : EReal) * (w i : EReal)) + (β : EReal))
        + (c : EReal) * ∑ r : Fin 8, (∑ i : Fin 4096, (x i : EReal) * (a r i : EReal)) * (b r : EReal) := by
  rw [sum_four_blocks (fun i => (x i : EReal) * ((w i : EReal) + (c : EReal) * ∑ r : Fin 8, (b r : EReal) * (a r i : EReal)))]
  simp only [← EReal.coe_mul, ← coe_sum, ← EReal.coe_add]
  exact congrArg _ (merged_real x w a b c β)

end LowRank
-- ==== Proof.Blocks.lean ====
/-
  Where each tile of a grid point sits in its array.

  The grid has 8 × 4 × 4 = 128 points, visited in row-major order: point `t` is row block `t / 16`, column block
  `t / 4 % 4` and contraction block `t % 4`.  At that point the `x` tile is rows `1024·(t/16) + p`, columns
  `1024·(t%4) + k` of the [8192, 4096] matrix; the weight tile is rows `1024·(t/4%4) + q`, columns `1024·(t%4) + k`
  of the [4096, 4096] merged weight; the bias tile is columns `1024·(t/4%4) + q` of the [1, 4096] row; and the
  output tile is rows `1024·(t/16) + p`, columns `1024·(t/4%4) + q` of the [8192, 4096] result.
-/
import proofs.«106931_j39934605918289_2_alg».proof.Proof.Gen.KernelIdeal.Frame
import proofs.«106931_j39934605918289_2_alg».proof.Proof.LibMergedLowRank
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen LowRank

theorem lt128 (t : Fin cfg0.N) : t.val < 128 := lt_of_lt_of_eq t.isLt (show cfg0.N = 128 from N_0)

/-- The three coordinates of a grid point. -/
abbrev rbOf (t : Fin cfg0.N) : Fin 8 := ⟨t.val / 16, by have := lt128 t; omega⟩
abbrev cbOf (t : Fin cfg0.N) : Fin 4 := ⟨t.val / 4 % 4, by omega⟩
abbrev kbOf (t : Fin cfg0.N) : Fin 4 := ⟨t.val % 4, by omega⟩

/-- The four index maps at a point, decided once over the 128 points. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4)

variable {F : FTy → Type} [FloatOps F]
variable (m : (ℓ : Loc nD τ sig) → Buf (Elt F) ℓ)

/-- The `x` tile of point `t`, entry `(p, k)`. -/
theorem x_tile (c : Dev nD) (t : Fin cfg0.N) (p k : Fin 1024) :
    (iblk m c 0 t : Vec F S1024x1024 .f32) (ix2 p k)
      = (V m c main_v5 : S8192x4096.Idx → F .f32) (ix2 (rowAt (rbOf t) p) (colAt (kbOf t) k)) := by
  obtain ⟨h0, h1, -⟩ := block_indices t
  unfold iblk
  rw [View.read_apply]
  show V m c main_v5 _ = V m c main_v5 _
  congr 1
  funext a
  apply Fin.ext
  match a with
  | ⟨0, _⟩ => show win0_0.index t 0 * 1024 + 1 * p.val = 1024 * (t.val / 16) + p.val; rw [h0]; omega
  | ⟨1, _⟩ => show win0_0.index t 1 * 1024 + 1 * k.val = 1024 * (t.val % 4) + k.val; rw [h1]; omega

/-- The weight tile of point `t`, entry `(q, k)`. -/
theorem w_tile (c : Dev nD) (t : Fin cfg0.N) (q k : Fin 1024) :
    (iblk m c 1 t : Vec F S1024x1024 .bf16) (ix2 q k)
      = (V m c main_v4 : S4096x4096.Idx → F .bf16) (ix2 (colAt (cbOf t) q) (colAt (kbOf t) k)) := by
  obtain ⟨-, -, h0, h1, -⟩ := block_indices t
  unfold iblk
  rw [View.read_apply]
  show V m c main_v4 _ = V m c main_v4 _
  congr 1
  funext a
  apply Fin.ext
  match a with
  | ⟨0, _⟩ => show win0_1.index t 0 * 1024 + 1 * q.val = 1024 * (t.val / 4 % 4) + q.val; rw [h0]; omega
  | ⟨1, _⟩ => show win0_1.index t 1 * 1024 + 1 * k.val = 1024 * (t.val % 4) + k.val; rw [h1]; omega

/-- The bias tile of point `t`, entry `(0, q)`. -/
theorem b_tile (c : Dev nD) (t : Fin cfg0.N) (q : Fin 1024) :
    (iblk m c 2 t : Vec F S1x1024 .f32) (ix2 (0 : Fin 1) q)
      = (V m c main_v6 : S1x4096.Idx → F .f32) (ix2 (0 : Fin 1) (colAt (cbOf t) q)) := by
  obtain ⟨-, -, -, -, h0, h1, -⟩ := block_indices t
  unfold iblk
  rw [View.read_apply]
  show V m c main_v6 _ = V m c main_v6 _
  congr 1
  funext a
  apply Fin.ext
  match a with
  | ⟨0, _⟩ => show win0_2.index t 0 * 1 + 1 * 0 = 0; rw [h0]
  | ⟨1, _⟩ => show win0_2.index t 1 * 1024 + 1 * q.val = 1024 * (t.val / 4 % 4) + q.val; rw [h1]; omega

end Cert.KernelIdeal.Blocks

end
-- ==== Proof.Accumulate.lean ====
/-
  What the accumulator holds point by point, and what a last point writes to its output tile.

  Along the contraction axis the four points of one output tile do: `acc := 0 + T₀`, `acc := acc + T₁`,
  `acc := acc + T₂`, `acc := acc + T₃`, `out := acc + bias`, where `T_k` at entry `(p, q)` is the product of the
  point's `x` tile row `p` with its weight tile row `q`.  Read through the tiles' positions in their arrays, entry
  `(p, q)` of the tile written at a last point is `((((0 + D₀) + D₁) + D₂) + D₃) + bias`, `D_k` the share of column
  block `k` in the contraction of row `1024·rb + p` of `x` with row `1024·cb + q` of the merged weight.
-/
import proofs.«106931_j39934605918289_2_alg».proof.Proof.Pieces
import proofs.«106931_j39934605918289_2_alg».proof.Proof.TileArith
import proofs.«106931_j39934605918289_2_alg».proof.Proof.Blocks

noncomputable section

open Idealize.ShloMosaic Idealize.ShloMosaic.TcCoe Idealize.SL.Sem Idealize.ShloMosaic.ValueIdx

namespace LowRank

/-- A matrix of extended reals. -/
abbrev Mat (a b : ℕ) := (⟨2, ![a, b]⟩ : Shape).Idx → EReal

/-- Column block `kb`'s share of the contraction of row `r` of `X` with row `n` of `Wf`. -/
def blockDot (X : Mat 8192 4096) (Wf : Mat 4096 4096) (r : Fin 8192) (n : Fin 4096) (kb : Fin 4) : EReal :=
  ∑ k : Fin 1024, X (ix2 r (colAt kb k)) * Wf (ix2 n (colAt kb k))

/-- Entry `(r, n)` of the kernel's [8192, 4096] result: the four shares added from zero in block order, then the
    bias. -/
def kernelEntry (X : Mat 8192 4096) (Wf : Mat 4096 4096) (b2 : Mat 1 4096) (r : Fin 8192) (n : Fin 4096) : EReal :=
  ((((0 + blockDot X Wf r n 0) + blockDot X Wf r n 1) + blockDot X Wf r n 2) + blockDot X Wf r n 3) + b2 (ix2 (0 : Fin 1) n)

end LowRank

namespace Cert.KernelIdeal.Accumulate

open Cert.KernelIdeal Cert.KernelIdeal.Gen Cert.KernelIdeal.Blocks LowRank

variable (m : (ℓ : Loc nD τ sig) → Buf (Elt Ideal) ℓ)

/-- The tiles of point `t`, at their literal shapes. -/
abbrev xTile (c : Dev nD) (t : Fin cfg0.N) : Vec Ideal S1024x1024 .f32 := iblk m c 0 t
abbrev wTile (c : Dev nD) (t : Fin cfg0.N) : Vec Ideal S1024x1024 .bf16 := iblk m c 1 t
abbrev bTile (c : Dev nD) (t : Fin cfg0.N) : Vec Ideal S1x1024 .f32 := iblk m c 2 t

/-- The arrays the region finds: `x` as a matrix, the merged weight, the bias as a row. -/
abbrev xArr (c : Dev nD) : Mat 8192 4096 := (V m c main_v5 : S8192x4096.Idx → Ideal .f32)
abbrev wArr (c : Dev nD) : Mat 4096 4096 := (V m c main_v4 : S4096x4096.Idx → Ideal .bf16)
abbrev bArr (c : Dev nD) : Mat 1 4096 := (V m c main_v6 : S1x4096.Idx → Ideal .f32)

/-- The product of the two tiles of point `t`, entry `(p, q)`. -/
def tileSum (c : Dev nD) (t : Fin cfg0.N) (p q : Fin 1024) : EReal :=
  ∑ k : Fin 1024, xTile m c t (ix2 p k) * wTile m c t (ix2 q k)

/-- A first point leaves `0 + T` in the accumulator. -/
theorem scratch_at_first (c : Dev nD) (t : Fin cfg0.N) (h0 : t.val % 4 = 0) (p q : Fin 1024) :
    (outsAt0 m c t.val t.isLt).2 (ix2 p q) = 0 + tileSum m c t p q := by
  have h1 : ¬t.val % 4 = 3 := by omega
  rw [outsAt0_A m c t h0 h1]
  dsimp only
  rw [Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  refine (TileArith.acc_step (xTile m c t) (wTile m c t) (k0_pay1 (F := Ideal)) p q).trans ?_
  rw [TileArith.zero_block]
  rfl

/-- Any later point leaves what the point before left, plus `T`. -/
theorem scratch_at_next (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q) + tileSum m c t p q := by
  by_cases h1 : t.val % 4 = 3
  · rw [outsAt0_C m c t h0 h1]
    dsimp only
    rw [Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
    exact TileArith.acc_step (xTile m c t) (wTile m c t) _ p q
  · rw [outsAt0_B m c t h0 h1]
    dsimp only
    rw [Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2]
    exact TileArith.acc_step (xTile m c t) (wTile m c t) _ p q

/-- The same, at a point given by its position. -/
theorem scratch_at_next' (c : Dev nD) (n : ℕ) (hn : n < cfg0.N) (h0 : ¬n % 4 = 0) (p q : Fin 1024) :
    (outsAt0 m c n hn).2 (ix2 p q)
      = (outsAt0 m c (n - 1) (Nat.lt_of_le_of_lt (Nat.sub_le _ _) hn)).2 (ix2 p q) + tileSum m c ⟨n, hn⟩ p q :=
  scratch_at_next m c ⟨n, hn⟩ h0 p q

theorem scratch_at_first' (c : Dev nD) (n : ℕ) (hn : n < cfg0.N) (h0 : n % 4 = 0) (p q : Fin 1024) :
    (outsAt0 m c n hn).2 (ix2 p q) = 0 + tileSum m c ⟨n, hn⟩ p q :=
  scratch_at_first m c ⟨n, hn⟩ h0 p q

/-- A last point writes the accumulator plus the bias row into its output tile. -/
theorem out_at_last (c : Dev nD) (t : Fin cfg0.N) (h1 : t.val % 4 = 3) (p q : Fin 1024) :
    (outsAt0 m c t.val t.isLt).1 (ix2 p q)
      = ((outsAt0 m c (t.val - 1) (Nat.lt_of_le_of_lt (Nat.sub_le _ _) t.isLt)).2 (ix2 p q) + tileSum m c t p q)
        + bTile m c t (ix2 (0 : Fin 1) q) := by
  have h0 : ¬t.val % 4 = 0 := by omega
  rw [outsAt0_C m c t h0 h1]
  dsimp only
  rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  refine (TileArith.add_bias _ (bTile m c t) p q).trans ?_
  exact congrArg (· + bTile m c t (ix2 (0 : Fin 1) q)) (TileArith.acc_step (xTile m c t) (wTile m c t) _ p q)

/-- The tile product of a point, through the tiles' positions: one column block's share of a row contraction. -/
theorem tileSum_eq (c : Dev nD) (t : Fin cfg0.N) (p q : Fin 1024) :
    tileSum m c t p q = blockDot (xArr m c) (wArr m c) (rowAt (rbOf t) p) (colAt (cbOf t) q) (kbOf t) := by
  unfold tileSum blockDot
  refine Finset.sum_congr rfl fun k _ => ?_
  exact congrArg₂ (· * ·) (Blocks.x_tile m c t p k) (Blocks.w_tile m c t q k)

/-- The same for a point `t'` of the same output tile as `t`. -/
theorem tileSum_at (c : Dev nD) (t t' : Fin cfg0.N) (kb : Fin 4) (hr : t'.val / 16 = t.val / 16)
    (hc : t'.val / 4 % 4 = t.val / 4 % 4) (hk : t'.val % 4 = kb.val) (p q : Fin 1024) :
    tileSum m c t' p q = blockDot (xArr m c) (wArr m c) (rowAt (rbOf t) p) (colAt (cbOf t) q) kb := by
  rw [tileSum_eq]
  have e1 : rbOf t' = rbOf t := Fin.ext hr
  have e2 : cbOf t' = cbOf t := Fin.ext hc
  have e3 : kbOf t' = kb := Fin.ext hk
  rw [e1, e2, e3]

/-- ENTRY `(p, q)` OF THE TILE A LAST POINT WRITES: the four points of the tile unrolled. -/
theorem tile_written (c : Dev nD) (t : Fin cfg0.N) (h1 : t.val % 4 = 3) (p q : Fin 1024) :
    (outsAt0 m c t.val t.isLt).1 (ix2 p q)
      = kernelEntry (xArr m c) (wArr m c) (bArr m c) (rowAt (rbOf t) p) (colAt (cbOf t) q) := by
  have hN := lt128 t
  have hlt : ∀ n, n ≤ t.val → n < cfg0.N := fun n h => Nat.lt_of_le_of_lt h t.isLt
  rw [out_at_last m c t h1 p q,
    scratch_at_next' m c (t.val - 1) (hlt _ (by omega)) (by omega) p q,
    scratch_at_next' m c (t.val - 1 - 1) (hlt _ (by omega)) (by omega) p q,
    scratch_at_first' m c (t.val - 1 - 1 - 1) (hlt _ (by omega)) (by omega) p q,
    tileSum_at m c t t 3 rfl rfl h1 p q,
    tileSum_at m c t ⟨t.val - 1, hlt _ (by omega)⟩ 2 (by show (t.val - 1) / 16 = t.val / 16; omega)
      (by show (t.val - 1) / 4 % 4 = t.val / 4 % 4; omega) (by show (t.val - 1) % 4 = 2; omega) p q,
    tileSum_at m c t ⟨t.val - 1 - 1, hlt _ (by omega)⟩ 1 (by show (t.val - 1 - 1) / 16 = t.val / 16; omega)
      (by show (t.val - 1 - 1) / 4 % 4 = t.val / 4 % 4; omega) (by show (t.val - 1 - 1) % 4 = 1; omega) p q,
    tileSum_at m c t ⟨t.val - 1 - 1 - 1, hlt _ (by omega)⟩ 0 (by show (t.val - 1 - 1 - 1) / 16 = t.val / 16; omega)
      (by show (t.val - 1 - 1 - 1) / 4 % 4 = t.val / 4 % 4; omega) (by show (t.val - 1 - 1 - 1) % 4 = 0; omega) p q]
  unfold kernelEntry
  exact congrArg (_ + ·) (Blocks.b_tile m c t q)

end Cert.KernelIdeal.Accumulate

end
-- ==== Proof.Entry.lean ====
/-
  The arrays the kernel's region finds, and the array the program returns, read at an entry.

  Before the region the host computes the merged weight `w + 4 · (B · A)` (kept in its (out, in) layout, then
  converted to the narrower float format, which is the identity on extended reals), re-lays `x` [4, 2048, 4096] as an
  [8192, 4096] matrix — row `2048·b + s` is `x[b, s, ·]` — and re-lays the bias [4096] as a [1, 4096] row.  After
  the region it re-lays the [8192, 4096] result as [4, 2048, 4096].
-/
import proofs.«106931_j39934605918289_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen

section AnyFloat
variable {F : FTy → Type} [FloatOps F]
variable (m : (ℓ : Loc nD τ sig) → Buf (Elt F) ℓ)

/-- `x` as the region finds it: the argument re-laid as a matrix. -/
theorem entry_x (c : Dev nD) : (V m c main_v5 : S8192x4096.Idx → F .f32)
    = shapeCast S8192x4096 (m ((c : Thread nD τ).loc main_arg0)) shapeCasts_S4x2048x4096_S8192x4096 := by
  show StableHlo.after hostOps0 (fun b => m (c, b)) (Proc.devRef .tc main_v5) = _
  after_results <;> rfl

/-- The bias as the region finds it: the argument re-laid as a row. -/
theorem entry_b (c : Dev nD) : (V m c main_v6 : S1x4096.Idx → F .f32)
    = shapeCast S1x4096 (m ((c : Thread nD τ).loc main_arg4)) shapeCasts_S4096_S1x4096 := by
  show StableHlo.after hostOps0 (fun b => m (c, b)) (Proc.devRef .tc main_v6) = _
  after_results <;> rfl

/-- The merged weight as the region finds it. -/
theorem entry_w (c : Dev nD) : (V m c main_v4 : S4096x4096.Idx → F .bf16)
    = truncf .bf16 (addf (m ((c : Thread nD τ).loc main_arg1))
        (mulf (broadcastInDim S4096x4096 ![] bcast_S_S4096x4096 (constant (F := F) S_ .f32 0x40800000#32))
          (Host.dotGeneral dot_S4096x8_S8x4096_S4096x4096_1_0_0_1_n_n none (m ((c : Thread nD τ).loc main_arg3)) (m ((c : Thread nD τ).loc main_arg2)))))
        bitsLt_bf16_f32 := by
  show StableHlo.after hostOps0 (fun b => m (c, b)) (Proc.devRef .tc main_v4) = _
  after_results <;> rfl

end AnyFloat

/-- The dimension numbers of the host's `B · A`: `B` contracted along its second axis, `A` along its first. -/
abbrev mergeDot := dot_S4096x8_S8x4096_S4096x4096_1_0_0_1_n_n

theorem lhs_row (j : S4096x4096.Idx) (q : mergeDot.contr.Idx) : (mergeDot.lhsIdx j q 0).val = (j 0).val := by
  unfold DotDims.lhsIdx
  rw [dif_neg (show ¬(0 : Fin S4096x8.rank) ∈ mergeDot.lhsBatch by decide), dif_pos (show (0 : Fin S4096x8.rank) ∈ mergeDot.lhsNonContracting by decide)]
  rfl
theorem lhs_col (j : S4096x4096.Idx) (q : mergeDot.contr.Idx) : (mergeDot.lhsIdx j q 1).val = (q ⟨0, by decide⟩).val :=
  mergeDot.lhsIdx_val_of_single rfl j q
theorem rhs_row (j : S4096x4096.Idx) (q : mergeDot.contr.Idx) : (mergeDot.rhsIdx j q 0).val = (q ⟨0, by decide⟩).val :=
  mergeDot.rhsIdx_val_of_single rfl j q
theorem rhs_col (j : S4096x4096.Idx) (q : mergeDot.contr.Idx) : (mergeDot.rhsIdx j q 1).val = (j 1).val := by
  unfold DotDims.rhsIdx
  rw [dif_neg (show ¬(1 : Fin S8x4096.rank) ∈ mergeDot.rhsBatch by decide), dif_pos (show (1 : Fin S8x4096.rank) ∈ mergeDot.rhsNonContracting by decide)]
  rfl

/-- The host's `B · A` at entry `(n, i)`: `Σ_r B[n, r] · A[r, i]`. -/
theorem low_rank_product (B : FVec Ideal S4096x8 .f32) (A : FVec Ideal S8x4096 .f32) (n i : Fin 4096) :
    Host.dotGeneral (F := Ideal) mergeDot none B A (ix2 n i) = ∑ r : Fin 8, B (ix2 n r) * A (ix2 r i) := by
  simp only [Host.dotGeneral]
  rw [Ideal.dotGeneral_apply, ← Equiv.sum_comp (contrEquiv1 mergeDot 8 rfl rfl).symm]
  refine Finset.sum_congr rfl fun k _ => ?_
  have hk := contrEquiv1_symm_val mergeDot 8 rfl rfl k
  have el : mergeDot.lhsIdx (ix2 n i) ((contrEquiv1 mergeDot 8 rfl rfl).symm k) = ix2 n k := funext fun a => Fin.ext (by
    match a with
    | ⟨0, _⟩ => exact lhs_row _ _
    | ⟨1, _⟩ => exact (lhs_col _ _).trans hk)
  have er : mergeDot.rhsIdx (ix2 n i) ((contrEquiv1 mergeDot 8 rfl rfl).symm k) = ix2 k i := funext fun a => Fin.ext (by
    match a with
    | ⟨0, _⟩ => exact (rhs_row _ _).trans hk
    | ⟨1, _⟩ => exact rhs_col _ _)
  rw [el, er]

variable (m : (ℓ : Loc nD τ sig) → Buf (Elt Ideal) ℓ)

/-- The five arguments, at their literal shapes. -/
abbrev argX (c : Dev nD) : FVec Ideal S4x2048x4096 .f32 := m ((c : Thread nD τ).loc main_arg0)
abbrev argW (c : Dev nD) : FVec Ideal S4096x4096 .f32 := m ((c : Thread nD τ).loc main_arg1)
abbrev argA (c : Dev nD) : FVec Ideal S8x4096 .f32 := m ((c : Thread nD τ).loc main_arg2)
abbrev argB (c : Dev nD) : FVec Ideal S4096x8 .f32 := m ((c : Thread nD τ).loc main_arg3)
abbrev argBias (c : Dev nD) : FVec Ideal S4096 .f32 := m ((c : Thread nD τ).loc main_arg4)

/-- A [4, 2048, 4096] array re-laid as a matrix: row `2048·b + s` is `x[b, s, ·]`. -/
theorem matrix_of_x (x : FVec Ideal S4x2048x4096 .f32) (b : Fin 4) (s : Fin 2048) (i : Fin 4096) :
    shapeCast S8192x4096 x shapeCasts_S4x2048x4096_S8192x4096 (ix2 (⟨2048 * b.val + s.val, by omega⟩ : Fin 8192) i)
      = x (ix3 b s i) :=
  shapeCast_apply _ _ _ _ (by
    rw [Shape.rowMajor_val_three, Shape.rowMajor_val_two]
    show (b.val * 2048 + s.val) * 4096 + i.val = (2048 * b.val + s.val) * 4096 + i.val
    omega)

/-- Row `2048·b + s` of the matrix the region finds is `x[b, s, ·]`. -/
theorem x_at (c : Dev nD) (b : Fin 4) (s : Fin 2048) (i : Fin 4096) :
    (V m c main_v5 : S8192x4096.Idx → Ideal .f32) (ix2 (⟨2048 * b.val + s.val, by omega⟩ : Fin 8192) i)
      = argX m c (ix3 b s i) := by
  rw [entry_x]
  exact matrix_of_x (argX m c) b s i

/-- Entry `n` of the bias row. -/
theorem b_at (c : Dev nD) (n : Fin 4096) :
    (V m c main_v6 : S1x4096.Idx → Ideal .f32) (ix2 (0 : Fin 1) n) = argBias m c (ix1 n) := by
  rw [entry_b]
  exact shapeCast_a_1a_apply (argBias m c) _ 0 n

/-- The merged weight of any three arrays at entry `(n, i)`: `w[n, i] + 4 · Σ_r B[n, r] · A[r, i]` (the literal kept
    as its word). -/
theorem merged_at (W : FVec Ideal S4096x4096 .f32) (B : FVec Ideal S4096x8 .f32) (A : FVec Ideal S8x4096 .f32) (n i : Fin 4096) :
    (truncf .bf16 (addf W
        (mulf (broadcastInDim S4096x4096 ![] bcast_S_S4096x4096 (constant (F := Ideal) S_ .f32 0x40800000#32))
          (Host.dotGeneral (F := Ideal) mergeDot none B A))) bitsLt_bf16_f32 : FVec Ideal S4096x4096 .bf16) (ix2 n i)
      = W (ix2 n i) + Ideal.ofBits .f32 0x40800000#32 * ∑ r : Fin 8, B (ix2 n r) * A (ix2 r i) := by
  show addf W (mulf (broadcastInDim S4096x4096 ![] bcast_S_S4096x4096 (constant (F := Ideal) S_ .f32 0x40800000#32))
      (Host.dotGeneral (F := Ideal) mergeDot none B A)) (ix2 n i) = _
  refine (addf_apply _ _ _).trans ?_
  refine congrArg (W (ix2 n i) + ·) ?_
  refine (mulf_apply _ _ _).trans ?_
  exact congrArg (Ideal.ofBits .f32 0x40800000#32 * ·) (low_rank_product B A n i)

/-- Entry `(n, i)` of the merged weight the region finds. -/
theorem w_at (c : Dev nD) (n i : Fin 4096) :
    (V m c main_v4 : S4096x4096.Idx → Ideal .bf16) (ix2 n i)
      = argW m c (ix2 n i) + Ideal.ofBits .f32 0x40800000#32 * ∑ r : Fin 8, argB m c (ix2 n r) * argA m c (ix2 r i) := by
  rw [entry_w]
  exact merged_at (argW m c) (argB m c) (argA m c) n i

/-- The result re-laid: entry `(b, s, o)` is entry `(2048·b + s, o)` of the matrix. -/
theorem relaid_at (Y : S8192x4096.Idx → Ideal .f32) (b : Fin 4) (s : Fin 2048) (o : Fin 4096) :
    shapeCast S4x2048x4096 Y shapeCasts_S8192x4096_S4x2048x4096 (ix3 b s o)
      = Y (ix2 (⟨2048 * b.val + s.val, by omega⟩ : Fin 8192) o) :=
  shapeCast_apply _ _ _ _ (by
    rw [Shape.rowMajor_val_three, Shape.rowMajor_val_two]
    show (2048 * b.val + s.val) * 4096 + o.val = (b.val * 2048 + s.val) * 4096 + o.val
    omega)

end Cert.KernelIdeal.Entry

end
-- ==== Proof.KernelValue.lean ====
/-
  The kernel's program as a whole: what its result holds after the run.

  Every entry of the [8192, 4096] result lies in the output tile of exactly one row block and column block, written
  once, at the last of that tile's four points; so the result matrix is, entry by entry, the four block shares of the
  row contraction added from zero, plus the bias.  The program then re-lays that matrix as [4, 2048, 4096].
-/
import proofs.«106931_j39934605918289_2_alg».proof.Proof.Accumulate
import proofs.«106931_j39934605918289_2_alg».proof.Proof.Entry

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks Cert.KernelIdeal.Accumulate LowRank

variable (m : (ℓ : Loc nD τ sig) → Buf (Elt Ideal) ℓ) (ρ : Dev nD → PrngReg)

/-- The result matrix, as one function of the arrays the region finds. -/
def resultMat (c : Dev nD) : S8192x4096.Idx → Ideal .f32 := fun y =>
  kernelEntry (xArr m c) (wArr m c) (bArr m c) ⟨(y 0).val, idx2_lt0 y⟩ ⟨(y 1).val, idx2_lt1 y⟩

/-- What a last point writes back is its tile of the result matrix. -/
theorem flushed_eq (c : Dev nD) (t : Fin cfg0.N) (hf : (cfg0.win 3).flush t = true) :
    (dats m 0 c).flushed 3 t = ((cfg0.win 3).blk t).view.read (Elt Ideal) (resultMat m c) := by
  have h3 : t.val % 4 = 3 := (flush0_3 t).mp hf
  obtain ⟨-, -, -, -, -, -, i0, i1⟩ := block_indices t
  show (cfg0.win 3).cut (grid0.coords t) ((dats m 0 c).after 3 t) = _
  rw [after0_3]
  refine funext fun (y : S1024x1024.Idx) => ?_
  obtain ⟨p, q, rfl⟩ : ∃ (p q : Fin 1024), y = ix2 p q := ⟨y 0, y 1, eq_ix2 y⟩
  show (outsAt0 m c t.val t.isLt).1 (ix2 p q) = resultMat m c (((cfg0.win 3).blk t).view.emb (ix2 p q))
  rw [tile_written m c t h3 p q]
  unfold resultMat
  congr 1 <;> apply Fin.ext
  · show 1024 * (t.val / 16) + p.val = win0_3.index t (0 : Fin 2) * 1024 + 1 * p.val
    rw [i0]; omega
  · show 1024 * (t.val / 4 % 4) + q.val = win0_3.index t (1 : Fin 2) * 1024 + 1 * q.val
    rw [i1]; omega

/-- An entry of the result is in point `t`'s output tile iff each coordinate is in the tile's range. -/
theorem mem_tile (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every entry is in the tile some last point writes: row block `i₀ / 1024`, column block `i₁ / 1024`. -/
theorem covered (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hN : cfg0.N = 128 := N_0
  have ht : 16 * ((i 0).val / 1024) + 4 * ((i 1).val / 1024) + 3 < cfg0.N := by rw [hN]; omega
  obtain ⟨-, -, -, -, -, -, e0, e1⟩ := block_indices ⟨_, ht⟩
  have e0' : win0_3.index ⟨_, ht⟩ (0 : Fin 2) = (16 * ((i 0).val / 1024) + 4 * ((i 1).val / 1024) + 3) / 16 := e0
  have e1' : win0_3.index ⟨_, ht⟩ (1 : Fin 2) = (16 * ((i 0).val / 1024) + 4 * ((i 1).val / 1024) + 3) / 4 % 4 := e1
  refine ⟨⟨_, ht⟩, (flush0_3 _).mpr (by show (16 * ((i 0).val / 1024) + 4 * ((i 1).val / 1024) + 3) % 4 = 3; omega), ?_⟩
  rw [mem_tile]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e0']; omega
  | ⟨1, _⟩ =>
    show win0_3.index ⟨_, ht⟩ (1 : Fin 2) * 1024 ≤ (i 1).val ∧ (i 1).val < win0_3.index ⟨_, ht⟩ (1 : Fin 2) * 1024 + 1024
    rw [e1']; omega

/-- The result matrix after the region. -/
theorem final_mat (c : Dev nD) : (dats m 0 c).arrAt 3 cfg0.N = resultMat m c :=
  (dats m 0 c).arrAt_eq_of_cover 3 (resultMat m c) (flushed_eq m c) covered

/-- The program's result: the matrix re-laid. -/
theorem result_eq (c : Dev nD) :
    Pipeline.afterTail₀ cfgs (dats m) 0 (V0 m) [hostOps1] c main_v8
      = shapeCast S4x2048x4096 (resultMat m c) shapeCasts_S8192x4096_S4x2048x4096 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = resultMat m c :=
    (Pipeline.withArrays_arr spec0 launch0.win.arr_inj c _ _ 3).trans (final_mat m c)
  rw [e]
  rfl

/-- THE KERNEL'S RUN, READ: the result at the re-laid matrix, the arguments unchanged. -/
theorem run : θ_run defs (onTc (τ := τ) (main (F := Ideal))) ⟨m, fun _ => 0, ρ⟩ fun r => ∀ c : Dev nD,
      r.2.mem ((c.tc : Thread nD τ).loc main_v8) = shapeCast S4x2048x4096 (resultMat m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefEntry.lean ====
/-
  The reference, one entry at a time, with floats read as extended reals.

  Entry `(b, s, o)` of the reference's result is `(Σ_k x[b,s,k]·w[o,k] + bias[o]) + 4 · Σ_r (Σ_k x[b,s,k]·A[r,k]) · B[o,r]`:
  the base contraction with the bias added, then the scaled rank-8 path, each contraction a plain sum.
-/
import proofs.«106931_j39934605918289_2_alg».proof.Proof.Gen.ReferenceIdeal.Read

noncomputable section

open Idealize.ShloMosaic Idealize.ShloMosaic.ValueIdx

namespace Cert.ReferenceIdeal.RefEntry

open Cert.ReferenceIdeal Cert.ReferenceIdeal.Read

theorem ref_at (x : FVec Ideal S4x2048x4096 .f32) (W : FVec Ideal S4096x4096 .f32) (A : FVec Ideal S8x4096 .f32)
    (B : FVec Ideal S4096x8 .f32) (bias : FVec Ideal S4096 .f32) (b : Fin 4) (s : Fin 2048) (o : Fin 4096) :
    val_main_v8 (F := Ideal) x W A B bias (ix3 b s o)
      = ((∑ k : Fin 4096, x (ix3 b s k) * W (ix2 o k)) + bias (ix1 o))
        + Ideal.ofBits .f32 0x40800000#32
          * ∑ r : Fin 8, (∑ k : Fin 4096, x (ix3 b s k) * A (ix2 r k)) * B (ix2 o r) := by
  have e0l : ∀ k : Fin 4096, lidx_main_v0 (ix3 b s o) k = ix3 b s k := fun k => funext fun a => Fin.ext (by
    match a with | ⟨0, _⟩ => rfl | ⟨1, _⟩ => rfl | ⟨2, _⟩ => rfl)
  have e0r : ∀ k : Fin 4096, ridx_main_v0 (ix3 b s o) k = ix2 o k := fun k => funext fun a => Fin.ext (by
    match a with | ⟨0, _⟩ => rfl | ⟨1, _⟩ => rfl)
  have e1 : idx_main_v1 (idx_main_v2 (ix3 b s o)) = ix1 o := funext fun a => Fin.ext (by
    match a with | ⟨0, _⟩ => rfl)
  have e5l : ∀ r : Fin 8, lidx_main_v5 (ix3 b s o) r = ix3 b s r := fun r => funext fun a => Fin.ext (by
    match a with | ⟨0, _⟩ => rfl | ⟨1, _⟩ => rfl | ⟨2, _⟩ => rfl)
  have e5r : ∀ r : Fin 8, ridx_main_v5 (ix3 b s o) r = ix2 o r := fun r => funext fun a => Fin.ext (by
    match a with | ⟨0, _⟩ => rfl | ⟨1, _⟩ => rfl)
  have e4l : ∀ (r : Fin 8) (k : Fin 4096), lidx_main_v4 (ix3 b s r) k = ix3 b s k := fun r k => funext fun a => Fin.ext (by
    match a with | ⟨0, _⟩ => rfl | ⟨1, _⟩ => rfl | ⟨2, _⟩ => rfl)
  have e4r : ∀ (r : Fin 8) (k : Fin 4096), ridx_main_v4 (ix3 b s r) k = ix2 r k := fun r k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v6_apply, val_main_cst_apply, val_main_v5_apply]
  simp only [val_main_v4_apply, e0l, e0r, e1, e5l, e5r, e4l, e4r, Ideal.addf_def, Ideal.mulf_def, Ideal.ofBits_def]

end Cert.ReferenceIdeal.RefEntry

end
-- ==== Proof.Finite.lean ====
/-
  What the precondition says: every entry of every argument is a real number.

  The precondition is the conjunction, over the five arguments, of "every entry has absolute value below +inf".
  Read on the extended reals, `max a (-a) < +inf` rules out both infinities, so each entry is a real number.
-/
import proofs.«106931_j39934605918289_2_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs

/-- The scalar shape has one index. -/
instance : Subsingleton S_.Idx := ⟨fun a b => funext fun d => d.elim0⟩

/-- An extended real whose absolute value is below `+inf` (the word `0x7F800000`) is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

variable [Facts]
open Facts

/-- Under the precondition every entry of the five arguments is a real number. -/
theorem all_real (a0 : FVec Ideal S4x2048x4096 .f32) (a1 : FVec Ideal S4096x4096 .f32) (a2 : FVec Ideal S8x4096 .f32)
    (a3 : FVec Ideal S4096x8 .f32) (a4 : FVec Ideal S4096 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨fun i => real_of_abs_lt_inf _ (Host.reduce_andi_all _ _ _ _ ix0 h0' i),
    fun i => real_of_abs_lt_inf _ (Host.reduce_andi_all _ _ _ _ ix0 h1 i),
    fun i => real_of_abs_lt_inf _ (Host.reduce_andi_all _ _ _ _ ix0 h2 i),
    fun i => real_of_abs_lt_inf _ (Host.reduce_andi_all _ _ _ _ ix0 h3 i),
    fun i => real_of_abs_lt_inf _ (Host.reduce_andi_all _ _ _ _ ix0 h4 i)⟩

end Cert.Pre_finite_inputs.Finite

end
-- ==== Proof.Bridge.lean ====
/-
  The two programs compute the same entry.

  Entry `(b, s, o)` of the kernel's result is the contraction of `x[b, s, ·]` with row `o` of the merged weight
  `w + 4·(B·A)`, taken in four blocks from zero, plus `bias[o]`; entry `(b, s, o)` of the reference's result is
  `(Σ_k x[b,s,k]·w[o,k] + bias[o]) + 4·Σ_r (Σ_k x[b,s,k]·A[r,k])·B[o,r]`.  Where every entry of the five
  arguments is a real number, the two are equal by the law of the merged weight.
-/
import proofs.«106931_j39934605918289_2_alg».proof.Proof.KernelValue
import proofs.«106931_j39934605918289_2_alg».proof.Proof.RefEntry
import proofs.«106931_j39934605918289_2_alg».proof.Proof.Finite

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Accumulate Cert.KernelIdeal.Entry Cert.KernelIdeal.KernelValue LowRank

variable (m : (ℓ : Loc nD τ sig) → Buf (Elt Ideal) ℓ)

/-- The scale `4.0` as a real number. -/
theorem four : Ideal.ofBits .f32 0x40800000#32 = ((4 : ℝ) : EReal) := by
  simp [Ideal.ofBits, Ideal.ieee, -EReal.coe_mul]
  norm_num

/-- Entry `(b, s, o)` of the kernel's result, through the arguments. -/
theorem kernel_entry (c : Dev nD) (b : Fin 4) (s : Fin 2048) (o : Fin 4096) :
    shapeCast S4x2048x4096 (resultMat m c) shapeCasts_S8192x4096_S4x2048x4096 (ix3 b s o)
      = ((((0
          + ∑ k : Fin 1024, argX m c (ix3 b s (colAt 0 k)) * (argW m c (ix2 o (colAt 0 k)) + Ideal.ofBits .f32 0x40800000#32 * ∑ r : Fin 8, argB m c (ix2 o r) * argA m c (ix2 r (colAt 0 k))))
          + ∑ k : Fin 1024, argX m c (ix3 b s (colAt 1 k)) * (argW m c (ix2 o (colAt 1 k)) + Ideal.ofBits .f32 0x40800000#32 * ∑ r : Fin 8, argB m c (ix2 o r) * argA m c (ix2 r (colAt 1 k))))
          + ∑ k : Fin 1024, argX m c (ix3 b s (colAt 2 k)) * (argW m c (ix2 o (colAt 2 k)) + Ideal.ofBits .f32 0x40800000#32 * ∑ r : Fin 8, argB m c (ix2 o r) * argA m c (ix2 r (colAt 2 k))))
          + ∑ k : Fin 1024, argX m c (ix3 b s (colAt 3 k)) * (argW m c (ix2 o (colAt 3 k)) + Ideal.ofBits .f32 0x40800000#32 * ∑ r : Fin 8, argB m c (ix2 o r) * argA m c (ix2 r (colAt 3 k))))
          + argBias m c (ix1 o) := by
  rw [relaid_at]
  show kernelEntry (xArr m c) (wArr m c) (bArr m c) (⟨2048 * b.val + s.val, by omega⟩ : Fin 8192) o = _
  unfold kernelEntry blockDot
  have ex : ∀ i : Fin 4096, xArr m c (ix2 (⟨2048 * b.val + s.val, by omega⟩ : Fin 8192) i) = argX m c (ix3 b s i) :=
    fun i => x_at m c b s i
  have ew : ∀ i : Fin 4096, wArr m c (ix2 o i)
      = argW m c (ix2 o i) + Ideal.ofBits .f32 0x40800000#32 * ∑ r : Fin 8, argB m c (ix2 o r) * argA m c (ix2 r i) :=
    fun i => w_at m c o i
  have eb : bArr m c (ix2 (0 : Fin 1) o) = argBias m c (ix1 o) := b_at m c o
  simp only [ex, ew, eb]

/-- THE BRIDGE: where the arguments' entries are real numbers, the kernel's result entry is the reference's. -/
theorem entry_eq (c : Dev nD)
    (hx : ∀ i, ∃ r : ℝ, argX m c i = (r : EReal)) (hw : ∀ i, ∃ r : ℝ, argW m c i = (r : EReal))
    (ha : ∀ i, ∃ r : ℝ, argA m c i = (r : EReal)) (hb : ∀ i, ∃ r : ℝ, argB m c i = (r : EReal))
    (hbias : ∀ i, ∃ r : ℝ, argBias m c i = (r : EReal)) (b : Fin 4) (s : Fin 2048) (o : Fin 4096) :
    shapeCast S4x2048x4096 (resultMat m c) shapeCasts_S8192x4096_S4x2048x4096 (ix3 b s o)
      = Cert.ReferenceIdeal.Read.val_main_v8 (F := Ideal) (argX m c) (argW m c) (argA m c) (argB m c) (argBias m c) (ix3 b s o) := by
  choose fx hfx using hx
  choose fw hfw using hw
  choose fa hfa using ha
  choose fb hfb using hb
  choose fbias hfbias using hbias
  rw [kernel_entry, Cert.ReferenceIdeal.RefEntry.ref_at]
  simp only [hfx, hfw, hfa, hfb, hfbias, four]
  exact merged_blocks (fun i => fx (ix3 b s i)) (fun i => fw (ix2 o i)) (fun r i => fa (ix2 r i)) (fun r => fb (ix2 o r)) 4
    (fbias (ix1 o))

end Cert.KernelIdeal.Bridge

end
-- ==== Proof.lean ====
/-
  A linear layer with a low-rank update, `out = x·wᵀ + bias + 4·(x·Aᵀ)·Bᵀ`, computed two ways.

  The kernel first merges the update into the weight, `w + 4·(B·A)`, and then runs ONE tiled product: for each
  1024 × 1024 tile of the [8192, 4096] result it walks the four 1024-column blocks of the contraction axis, keeping
  a running tile that starts at zero, and at the last block adds the bias and writes the tile.  The reference
  computes the base product plus the bias, then the rank-8 path, and adds them.

  As extended reals the two results agree entry by entry whenever the arguments are finite: the kernel's entry is
  `Σ_i x_i (w_i + 4 Σ_r b_r a_{r,i}) + β`, the reference's `(Σ_i x_i w_i + β) + 4 Σ_r (Σ_i x_i a_{r,i}) b_r`, and
  these are equal by distributivity and an exchange of finite sums — laws that need every term to be a real
  number, which the precondition provides.  The change of float format on the way into the tile product is the
  identity at this reading.  The three frame claims are the programs' runs; nothing was rewritten by the
  idealization, so `preserves` is trivial.
-/
import proofs.«106931_j39934605918289_2_alg».proof.Defs
import proofs.«106931_j39934605918289_2_alg».proof.Proof.Gen.Kernel
import proofs.«106931_j39934605918289_2_alg».proof.Proof.Gen.Kernel.Skeleton
import proofs.«106931_j39934605918289_2_alg».proof.Proof.Gen.Kernel.Launch
import proofs.«106931_j39934605918289_2_alg».proof.Proof.Gen.Kernel.Points
import proofs.«106931_j39934605918289_2_alg».proof.Proof.Gen.Kernel.Frame
import proofs.«106931_j39934605918289_2_alg».proof.Proof.Gen.KernelIdeal
import proofs.«106931_j39934605918289_2_alg».proof.Proof.Gen.KernelIdeal.Skeleton
import proofs.«106931_j39934605918289_2_alg».proof.Proof.Gen.KernelIdeal.Launch
import proofs.«106931_j39934605918289_2_alg».proof.Proof.Gen.KernelIdeal.Points
import proofs.«106931_j39934605918289_2_alg».proof.Proof.Gen.KernelIdeal.Frame
import proofs.«106931_j39934605918289_2_alg».proof.Proof.Gen.ReferenceIdeal
import proofs.«106931_j39934605918289_2_alg».proof.Proof.Gen.Pre_finite_inputs
import proofs.«106931_j39934605918289_2_alg».proof.Proof.Gen.ReferenceIdeal.Run
import proofs.«106931_j39934605918289_2_alg».proof.Proof.Gen.ReferenceIdeal.Read
import proofs.«106931_j39934605918289_2_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernel_ideal : @Cert.frame_KernelIdeal Cert.KernelIdeal.Gen.facts Cert.Pre_finite_inputs.Gen.facts :=
  fun m ρ _ => Cert.KernelIdeal.Gen.frame m ρ

/-- The reference's run with its result dropped is its frame. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the same array: the kernel's re-laid result matrix, which is the reference's result entry by
    entry because the precondition makes every argument entry a real number. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => shapeCast Cert.KernelIdeal.S4x2048x4096 (Cert.KernelIdeal.KernelValue.resultMat m c)
    Cert.KernelIdeal.Facts₀.shapeCasts_S8192x4096_S4x2048x4096, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  obtain ⟨hx, hw, ha, hb, hbias⟩ := Cert.Pre_finite_inputs.Finite.all_real _ _ _ _ _ (hpre c)
  funext i
  obtain ⟨b, s, o, rfl⟩ : ∃ (b : Fin 4) (s : Fin 2048) (o : Fin 4096), i = ix3 b s o := ⟨i 0, i 1, i 2, eq_ix3 i⟩
  exact (Cert.KernelIdeal.Bridge.entry_eq m c hx hw ha hb hbias b s o).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
